-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x1024 : Shape := ⟨2, ![200, 1024]⟩
abbrev S512x50000 : Shape := ⟨2, ![512, 50000]⟩
abbrev S512 : Shape := ⟨1, ![512]⟩
abbrev S_ : Shape := ⟨0, ![]⟩

class Facts : Prop where
  bcast_S_S512x50000 : S_.BroadcastsInDim S512x50000 (![] : Fin 0 → Fin S512x50000.rank)
  reducesTo_S512x50000_S_d0_1 : S512x50000.ReducesTo [0, 1] S_
  h_S_ : 0 < S_.numel
  bcast_S_S512 : S_.BroadcastsInDim S512 (![] : Fin 0 → Fin S512.rank)
  reducesTo_S512_S_d0 : S512.ReducesTo [0] S_
  bcast_S_S200x1024 : S_.BroadcastsInDim S200x1024 (![] : Fin 0 → Fin S200x1024.rank)
  reducesTo_S200x1024_S_d0_1 : S200x1024.ReducesTo [0, 1] S_

variable [Facts]

def fn {F : FTy → Type} [FloatOps F] (main_arg0 : IVec S200x1024 32) (main_arg1 : FVec F S512x50000 .f32) (main_arg2 : FVec F S512 .f32) : IVec S_ 1 :=
  let main_v0 : FVec F S512x50000 .f32 := Host.absf main_arg1
  let main_cst : FVec F S_ .f32 := constant S_ .f32 0x7F800000#32
  let main_v1 : FVec F S512x50000 .f32 := broadcastInDim S512x50000 ![] bcast_S_S512x50000 main_cst
  let main_v2 : IVec S512x50000 1 := cmpf .olt main_v0 main_v1
  let main_c : IVec S_ 1 := constantI S_ 1 1#1
  let main_v3 : IVec S_ 1 := (fun x v => Host.reduce IntOp.andi x v reducesTo_S512x50000_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_c_2 : IVec S_ 32 := constantI S_ 32 0#32
  let main_v9 : IVec S200x1024 32 := broadcastInDim S200x1024 ![] bcast_S_S200x1024 main_c_2
  let main_v10 : IVec S200x1024 1 := cmpi .sge main_arg0 main_v9
  let main_c_3 : IVec S_ 1 := constantI S_ 1 1#1
  let main_v11 : IVec S_ 1 := (fun x v => Host.reduce IntOp.andi x v reducesTo_S200x1024_S_d0_1 h_S_) main_v10 main_c_3
  let main_v12 : IVec S_ 1 := andi main_v8 main_v11
  main_v12
-- ==== Kernel.lean ====
abbrev S200x1024 : Shape := ⟨2, ![200, 1024]⟩
abbrev S512x50000 : Shape := ⟨2, ![512, 50000]⟩
abbrev S512 : Shape := ⟨1, ![512]⟩
abbrev S1024x200 : Shape := ⟨2, ![1024, 200]⟩
abbrev S_ : Shape := ⟨0, ![]⟩
abbrev S1024 : Shape := ⟨1, ![1024]⟩
abbrev S1024x1 : Shape := ⟨2, ![1024, 1]⟩
abbrev S1024x51200 : Shape := ⟨2, ![1024, 51200]⟩
abbrev S1024x200x1 : Shape := ⟨3, ![1024, 200, 1]⟩
abbrev S1024x200x2 : Shape := ⟨3, ![1024, 200, 2]⟩
abbrev S512x51200 : Shape := ⟨2, ![512, 51200]⟩
abbrev S1x512 : Shape := ⟨2, ![1, 512]⟩
abbrev S1024x512 : Shape := ⟨2, ![1024, 512]⟩
abbrev S512x6400 : Shape := ⟨2, ![512, 6400]⟩
abbrev S512x512 : Shape := ⟨2, ![512, 512]⟩

abbrev nBuf : Space → Nat
  | .hbm => 42
  | .vmem => 7
  | .smem => 0
  | _ => 0

abbrev bufTy : (tb : Table) → Fin (tcTables nBuf tb) → BufTy
  | .hbm, ⟨0, _⟩ => ⟨S200x1024, .i32⟩
  | .hbm, ⟨1, _⟩ => ⟨S512x50000, .f32⟩
  | .hbm, ⟨2, _⟩ => ⟨S512, .f32⟩
  | .hbm, ⟨3, _⟩ => ⟨S1024x200, .i32⟩
  | .hbm, ⟨4, _⟩ => ⟨S_, .i32⟩
  | .hbm, ⟨5, _⟩ => ⟨S1024x200, .i32⟩
  | .hbm, ⟨6, _⟩ => ⟨S1024x200, .i1⟩
  | .hbm, ⟨7, _⟩ => ⟨S_, .f32⟩
  | .hbm, ⟨8, _⟩ => ⟨S_, .f32⟩
  | .hbm, ⟨9, _⟩ => ⟨S1024x200, .f32⟩
  | .hbm, ⟨10, _⟩ => ⟨S1024x200, .f32⟩
  | .hbm, ⟨11, _⟩ => ⟨S1024x200, .f32⟩
  | .hbm, ⟨12, _⟩ => ⟨S1024x200, .bf16⟩
  | .hbm, ⟨13, _⟩ => ⟨S1024, .i32⟩
  | .hbm, ⟨14, _⟩ => ⟨S1024x1, .i32⟩
  | .hbm, ⟨15, _⟩ => ⟨S1024x200, .i32⟩
  | .hbm, ⟨16, _⟩ => ⟨S_, .bf16⟩
  | .hbm, ⟨17, _⟩ => ⟨S1024x51200, .bf16⟩
  | .hbm, ⟨18, _⟩ => ⟨S_, .i32⟩
  | .hbm, ⟨19, _⟩ => ⟨S1024x200, .i32⟩
  | .hbm, ⟨20, _⟩ => ⟨S1024x200, .i1⟩
  | .hbm, ⟨21, _⟩ => ⟨S_, .i32⟩
  | .hbm, ⟨22, _⟩ => ⟨S1024x200, .i32⟩
  | .hbm, ⟨23, _⟩ => ⟨S1024x200, .i32⟩
  | .hbm, ⟨24, _⟩ => ⟨S1024x200, .i32⟩
  | .hbm, ⟨25, _⟩ => ⟨S_, .i32⟩
  | .hbm, ⟨26, _⟩ => ⟨S1024x200, .i32⟩
  | .hbm, ⟨27, _⟩ => ⟨S1024x200, .i1⟩
  | .hbm, ⟨28, _⟩ => ⟨S_, .i32⟩
  | .hbm, ⟨29, _⟩ => ⟨S1024x200, .i32⟩
  | .hbm, ⟨30, _⟩ => ⟨S1024x200, .i32⟩
  | .hbm, ⟨31, _⟩ => ⟨S1024x200, .i32⟩
  | .hbm, ⟨32, _⟩ => ⟨S1024x200x1, .i32⟩
  | .hbm, ⟨33, _⟩ => ⟨S1024x200x1, .i32⟩
  | .hbm, ⟨34, _⟩ => ⟨S1024x200x2, .i32⟩
  | .hbm, ⟨35, _⟩ => ⟨S1024x51200, .bf16⟩
  | .hbm, ⟨36, _⟩ => ⟨S_, .i32⟩
  | .hbm, ⟨37, _⟩ => ⟨S_, .f32⟩
  | .hbm, ⟨38, _⟩ => ⟨S512x51200, .f32⟩
  | .hbm, ⟨39, _⟩ => ⟨S512x51200, .bf16⟩
  | .hbm, ⟨40, _⟩ => ⟨S1x512, .f32⟩
  | .hbm, ⟨41, _⟩ => ⟨S1024x512, .f32⟩
  | .local _ .vmem, ⟨0, _⟩ => ⟨S512x6400, .bf16⟩
  | .local _ .vmem, ⟨1, _⟩ => ⟨S512x6400, .bf16⟩
  | .local _ .vmem, ⟨2, _⟩ => ⟨S512x6400, .bf16⟩
  | .local _ .vmem, ⟨3, _⟩ => ⟨S512x6400, .bf16⟩
  | .local _ .vmem, ⟨4, _⟩ => ⟨S1x512, .f32⟩
  | .local _ .vmem, ⟨5, _⟩ => ⟨S512x512, .f32⟩
  | .local _ .vmem, ⟨6, _⟩ => ⟨S512x512, .f32⟩
  | _, _ => ⟨S200x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x6400 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S200x1024_S1024x200_1_0 : S200x1024.Transposes [1, 0] S1024x200
  bcast_S_S1024x200 : S_.BroadcastsInDim S1024x200 (![] : Fin 0 → Fin S1024x200.rank)
  bitsLt_bf16_f32 : FTy.bits .bf16 < FTy.bits .f32
  bcast_S1024_S1024x1_0 : S1024.BroadcastsInDim S1024x1 (![0] : Fin 1 → Fin S1024x1.rank)
  bcast_S1024x1_S1024x200_0_1 : S1024x1.BroadcastsInDim S1024x200 (![0, 1] : Fin 2 → Fin S1024x200.rank)
  bcast_S_S1024x51200 : S_.BroadcastsInDim S1024x51200 (![] : Fin 0 → Fin S1024x51200.rank)
  bcast_S1024x200_S1024x200x1_0_1 : S1024x200.BroadcastsInDim S1024x200x1 (![0, 1] : Fin 2 → Fin S1024x200x1.rank)
  concatenates_S1024x200x1_S1024x200x1_S1024x200x2_d2 : Shape.Concatenates [S1024x200x1, S1024x200x1] S1024x200x2 2
  pads_S512x50000_S512x51200_000_012000 : S512x50000.Pads (![0, 0] : Fin 2 → Nat) ![0, 1200] ![0, 0] S512x51200
  h_S_ : 0 < S_.numel
  shapeCasts_S512_S1x512 : S512.ShapeCasts S1x512
  inb_S512x512_S512x512_0_0 : ∀ a, (![0, 0] : Fin 2 → Nat) a + S512x512.size a ≤ S512x512.size a
  h_S512x512 : 0 < S512x512.numel
  inb_S512x6400_S512x6400_0_0 : ∀ a, (![0, 0] : Fin 2 → Nat) a + S512x6400.size a ≤ S512x6400.size a
  h_S512x6400 : 0 < S512x6400.numel
  shapeCasts_S512x6400_S512x6400 : S512x6400.ShapeCasts S512x6400
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  scatter_S1024x51200_S1024x200x2_S1024x200_n_01_01_2_wf : ScatterDims.WF S1024x51200 S1024x200x2 S1024x200 [] [0, 1] [0, 1] 2
  dot_S512x6400_S512x6400_S512x512_1_1_0_0_n_n_wf : DotDims.WF S512x6400 S512x6400 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S1024x51200.size a
  hwx0_0 : ∀ i : grid0.Coords, EltTy.bits .bf16 = 32 ∨ (Rect.block (s := S1024x51200) S512x6400.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x6400.size a ≤ S512x51200.size a
  hwx0_1 : ∀ i : grid0.Coords, EltTy.bits .bf16 = 32 ∨ (Rect.block (s := S512x51200) S512x6400.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S1024x512.size a
  hwx0_3 : ∀ i : grid0.Coords, EltTy.bits .f32 = 32 ∨ (Rect.block (s := S1024x512) S512x512.size (cc0_transform_3 i) (hinb0_3 i)).WholeWords (EltTy.packing .f32)

variable [Facts₀]

def scatter_S1024x51200_S1024x200x2_S1024x200_n_01_01_2 : ScatterDims S1024x51200 S1024x200x2 S1024x200 where
  updateWindowDims := []
  insertedWindowDims := [0, 1]
  scatterDimsToOperandDims := [0, 1]
  indexVectorDim := 2
  wf := scatter_S1024x51200_S1024x200x2_S1024x200_n_01_01_2_wf
def dot_S512x6400_S512x6400_S512x512_1_1_0_0_n_n : DotDims S512x6400 S512x6400 S512x512 where
  lhsContracting := [1]
  rhsContracting := [1]
  lhsNonContracting := [0]
  rhsNonContracting := [0]
  lhsBatch := []
  rhsBatch := []
  wf := dot_S512x6400_S512x6400_S512x512_1_1_0_0_n_n_wf

abbrev win0_0 : Pipeline.Window sig grid0 :=
  Pipeline.Window.ofSpec (Memref.whole main_v22) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200x1024 : Shape := ⟨2, ![200, 1024]⟩
abbrev S512x50000 : Shape := ⟨2, ![512, 50000]⟩
abbrev S512 : Shape := ⟨1, ![512]⟩
abbrev S1024x200 : Shape := ⟨2, ![1024, 200]⟩
abbrev S_ : Shape := ⟨0, ![]⟩
abbrev S1024 : Shape := ⟨1, ![1024]⟩
abbrev S1024x1 : Shape := ⟨2, ![1024, 1]⟩
abbrev S1024x50000 : Shape := ⟨2, ![1024, 50000]⟩
abbrev S1024x200x1 : Shape := ⟨3, ![1024, 200, 1]⟩
abbrev S1024x200x2 : Shape := ⟨3, ![1024, 200, 2]⟩
abbrev S1024x512 : Shape := ⟨2, ![1024, 512]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S200x1024, .i32⟩
  | .hbm, ⟨1, _⟩ => ⟨S512x50000, .f32⟩
  | .hbm, ⟨2, _⟩ => ⟨S512, .f32⟩
  | .hbm, ⟨3, _⟩ => ⟨S1024x200, .i32⟩
  | .hbm, ⟨4, _⟩ => ⟨S_, .i32⟩
  | .hbm, ⟨5, _⟩ => ⟨S1024x200, .i32⟩
  | .hbm, ⟨6, _⟩ => ⟨S1024x200, .i1⟩
  | .hbm, ⟨7, _⟩ => ⟨S_, .f32⟩
  | .hbm, ⟨8, _⟩ => ⟨S_, .f32⟩
  | .hbm, ⟨9, _⟩ => ⟨S1024x200, .f32⟩
  | .hbm, ⟨10, _⟩ => ⟨S1024x200, .f32⟩
  | .hbm, ⟨11, _⟩ => ⟨S1024x200, .f32⟩
  | .hbm, ⟨12, _⟩ => ⟨S1024x200, .f32⟩
  | .hbm, ⟨13, _⟩ => ⟨S1024, .i32⟩
  | .hbm, ⟨14, _⟩ => ⟨S1024x1, .i32⟩
  | .hbm, ⟨15, _⟩ => ⟨S1024x200, .i32⟩
  | .hbm, ⟨16, _⟩ => ⟨S_, .f32⟩
  | .hbm, ⟨17, _⟩ => ⟨S1024x50000, .f32⟩
  | .hbm, ⟨18, _⟩ => ⟨S_, .i32⟩
  | .hbm, ⟨19, _⟩ => ⟨S1024x200, .i32⟩
  | .hbm, ⟨20, _⟩ => ⟨S1024x200, .i1⟩
  | .hbm, ⟨21, _⟩ => ⟨S_, .i32⟩
  | .hbm, ⟨22, _⟩ => ⟨S1024x200, .i32⟩
  | .hbm, ⟨23, _⟩ => ⟨S1024x200, .i32⟩
  | .hbm, ⟨24, _⟩ => ⟨S1024x200, .i32⟩
  | .hbm, ⟨25, _⟩ => ⟨S_, .i32⟩
  | .hbm, ⟨26, _⟩ => ⟨S1024x200, .i32⟩
  | .hbm, ⟨27, _⟩ => ⟨S1024x200, .i1⟩
  | .hbm, ⟨28, _⟩ => ⟨S_, .i32⟩
  | .hbm, ⟨29, _⟩ => ⟨S1024x200, .i32⟩
  | .hbm, ⟨30, _⟩ => ⟨S1024x200, .i32⟩
  | .hbm, ⟨31, _⟩ => ⟨S1024x200, .i32⟩
  | .hbm, ⟨32, _⟩ => ⟨S1024x200x1, .i32⟩
  | .hbm, ⟨33, _⟩ => ⟨S1024x200x1, .i32⟩
  | .hbm, ⟨34, _⟩ => ⟨S1024x200x2, .i32⟩
  | .hbm, ⟨35, _⟩ => ⟨S1024x50000, .f32⟩
  | .hbm, ⟨36, _⟩ => ⟨S1024x512, .f32⟩
  | .hbm, ⟨37, _⟩ => ⟨S1x512, .f32⟩
  | .hbm, ⟨38, _⟩ => ⟨S1024x512, .f32⟩
  | .hbm, ⟨39, _⟩ => ⟨S1024x512, .f32⟩
  | _, _ => ⟨S200x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  transposes_S200x1024_S1024x200_1_0 : S200x1024.Transposes [1, 0] S1024x200
  bcast_S_S1024x200 : S_.BroadcastsInDim S1024x200 (![] : Fin 0 → Fin S1024x200.rank)
  bcast_S1024_S1024x1_0 : S1024.BroadcastsInDim S1024x1 (![0] : Fin 1 → Fin S1024x1.rank)
  bcast_S1024x1_S1024x200_0_1 : S1024x1.BroadcastsInDim S1024x200 (![0, 1] : Fin 2 → Fin S1024x200.rank)
  bcast_S_S1024x50000 : S_.BroadcastsInDim S1024x50000 (![] : Fin 0 → Fin S1024x50000.rank)
  bcast_S1024x200_S1024x200x1_0_1 : S1024x200.BroadcastsInDim S1024x200x1 (![0, 1] : Fin 2 → Fin S1024x200x1.rank)
  concatenates_S1024x200x1_S1024x200x1_S1024x200x2_d2 : Shape.Concatenates [S1024x200x1, S1024x200x1] S1024x200x2 2
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  scatter_S1024x50000_S1024x200x2_S1024x200_n_01_01_2_wf : ScatterDims.WF S1024x50000 S1024x200x2 S1024x200 [] [0, 1] [0, 1] 2
  dot_S1024x50000_S512x50000_S1024x512_1_1_0_0_n_n_wf : DotDims.WF S1024x50000 S512x50000 S1024x512 [1] [1] [0] [0] [] []

variable [Facts₀]

def scatter_S1024x50000_S1024x200x2_S1024x200_n_01_01_2 : ScatterDims S1024x50000 S1024x200x2 S1024x200 where
  updateWindowDims := []
  insertedWindowDims := [0, 1]
  scatterDimsToOperandDims := [0, 1]
  indexVectorDim := 2
  wf := scatter_S1024x50000_S1024x200x2_S1024x200_n_01_01_2_wf
def dot_S1024x50000_S512x50000_S1024x512_1_1_0_0_n_n : DotDims S1024x50000 S512x50000 S1024x512 where
  lhsContracting := [1]
  rhsContracting := [1]
  lhsNonContracting := [0]
  rhsNonContracting := [0]
  lhsBatch := []
  rhsBatch := []
  wf := dot_S1024x50000_S512x50000_S1024x512_1_1_0_0_n_n_wf

class Facts : Prop extends Facts₀ where

variable [Facts]
-- ==== Proof.LibMatmulFin.lean ====
/-
  A matrix product read at one entry, as a finite sum over a plain range.

  On the extended reals a matrix-unit product into a zero accumulator is, entry by entry, the sum
  over the contraction index of the products of the two operands' entries.  When one axis is
  contracted, of extent `K`, that index is just a number below `K`; the lemma below states the
  entry as a sum over `Fin K`, the caller naming which entry of each operand position `k` reads.
  It holds for any dimension numbers with a single contracted axis, whatever the operands' layout
  (either may be stored transposed).
-/
import Idealize.ShloMosaic.PureOps.Ideal.Laws
import Idealize.ShloMosaic.Lib.ValueIdx

noncomputable section

namespace Cert.LibMatmulFin

open Idealize.ShloMosaic Idealize.ShloMosaic.ValueIdx

/-- Two indices of a rank-two shape with equal coordinates are equal. -/
theorem idx2_ext {n0 n1 : Nat} (a b : (⟨2, ![n0, n1]⟩ : Shape).Idx)
    (h0 : (a 0).val = (b 0).val) (h1 : (a 1).val = (b 1).val) : a = b :=
  funext fun d => Fin.ext (by
    match d with
    | ⟨0, _⟩ => exact h0
    | ⟨1, _⟩ => exact h1)

/-- A product into the zero accumulator, contracted over ONE axis of extent `K`, read at the
    result index `j`: the sum over `k < K` of the left operand at `li k` times the right operand at
    `ri k`, where `li k` and `ri k` are the operand indices the dimension numbers assign to result
    index `j` and contraction position `k` (`hl`, `hri`). -/
theorem matmul_zero_apply_fin {sl sr so : Shape} {φ₁ φ₂ : FTy} (D : DotDims sl sr so) (K : Nat)
    (hr : D.contr.rank = 1) (hs : D.contr.size ⟨0, by omega⟩ = K) (prec : Option ContractPrecision)
    (A : FVec Ideal sl φ₁) (B : FVec Ideal sr φ₂) (j : so.Idx) (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    FloatOps.matmul D prec A B (constant so .f32 0x00000000#32) j = ∑ k : Fin K, A (li k) * B (ri k) := by
  rw [Ideal.matmul_constant_zero_apply, ← Equiv.sum_comp (contrEquiv1 D K hr hs).symm]
  exact Finset.sum_congr rfl fun k _ => by rw [hl k, hri k]

end Cert.LibMatmulFin

end
-- ==== Proof.KernelBlocks.lean ====
/-
  The blocks the kernel body is handed at a grid point, and what the body computes from them.

  The grid is 2 × 8: point t = 8·i + k handles batch tile i (rows 512·i … 512·i + 511) and vocabulary
  tile k (columns 6400·k … 6400·k + 6399).  At that point the body sees
    * rows 512·i …, columns 6400·k … of the bag-of-words table [1024, 51200],
    * all 512 rows, columns 6400·k … of the padded weights [512, 51200],
    * the whole bias row [1, 512],
  and it (1) clears the resident output tile when k = 0, (2) adds to entry (p, q) of the tile the
  product sum ∑ₖ table(p, k) · weights(q, k) over the tile's 6400 columns, (3) adds the bias row
  to every row of the tile when k = 7.
-/
import proofs.«153619_j89610197664089_2_alg».proof.Proof.Gen.KernelIdeal.Value
import proofs.«153619_j89610197664089_2_alg».proof.Proof.LibMatmulFin
import Idealize.ShloMosaic.Lib.ValueIdx
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-! ## Which block each window shows at a point -/

/-- The table's window at point t shows block (t / 8, t % 8). -/
theorem index0 : ∀ t : Fin cfg0.N, win0_0.index t (0 : Fin 2) = t.val / 8 ∧ win0_0.index t (1 : Fin 2) = t.val % 8 :=
  (by decide +kernel : ∀ t : Fin grid0.N, _)

/-- The weights' window at point t shows block (0, t % 8). -/
theorem index1 : ∀ t : Fin cfg0.N, win0_1.index t (0 : Fin 2) = 0 ∧ win0_1.index t (1 : Fin 2) = t.val % 8 :=
  (by decide +kernel : ∀ t : Fin grid0.N, _)

/-- The bias window always shows its one block. -/
theorem index2 : ∀ t : Fin cfg0.N, win0_2.index t (0 : Fin 2) = 0 ∧ win0_2.index t (1 : Fin 2) = 0 :=
  (by decide +kernel : ∀ t : Fin grid0.N, _)

/-- Entry y of the table's block at point t is the table's entry at row 512·(t / 8) + y₀, column 6400·(t % 8) + y₁. -/
theorem iblk0_apply (t : Fin cfg0.N) (y : S512x6400.Idx) (k : S1024x51200.Idx)
    (h0 : (k 0).val = 512 * (t.val / 8) + (y 0).val) (h1 : (k 1).val = 6400 * (t.val % 8) + (y 1).val) :
    (iblk m c 0 t : Vec Ideal S512x6400 .bf16) y = V m c main_v22 k := by
  unfold iblk
  rw [View.read_apply]
  show V m c main_v22 _ = V m c main_v22 k
  congr 1
  funext a
  apply Fin.ext
  match a with
  | ⟨0, _⟩ => show win0_0.index t 0 * 512 + 1 * (y 0).val = (k 0).val; rw [h0, (index0 t).1]; omega
  | ⟨1, _⟩ => show win0_0.index t 1 * 6400 + 1 * (y 1).val = (k 1).val; rw [h1, (index0 t).2]; omega

/-- Entry y of the weights' block at point t is the padded weights' entry at row y₀, column 6400·(t % 8) + y₁. -/
theorem iblk1_apply (t : Fin cfg0.N) (y : S512x6400.Idx) (k : S512x51200.Idx)
    (h0 : (k 0).val = (y 0).val) (h1 : (k 1).val = 6400 * (t.val % 8) + (y 1).val) :
    (iblk m c 1 t : Vec Ideal S512x6400 .bf16) y = V m c main_v24 k := by
  unfold iblk
  rw [View.read_apply]
  show V m c main_v24 _ = V m c main_v24 k
  congr 1
  funext a
  apply Fin.ext
  match a with
  | ⟨0, _⟩ => show win0_1.index t 0 * 512 + 1 * (y 0).val = (k 0).val; rw [h0, (index1 t).1]; omega
  | ⟨1, _⟩ => show win0_1.index t 1 * 6400 + 1 * (y 1).val = (k 1).val; rw [h1, (index1 t).2]; omega

/-- The bias block at any point is the bias row itself. -/
theorem iblk2_apply (t : Fin cfg0.N) (y : S1x512.Idx) (k : S1x512.Idx) (h1 : (k 1).val = (y 1).val) :
    (iblk m c 2 t : Vec Ideal S1x512 .f32) y = V m c main_v25 k := by
  unfold iblk
  rw [View.read_apply]
  show V m c main_v25 _ = V m c main_v25 k
  congr 1
  funext a
  apply Fin.ext
  match a with
  | ⟨0, _⟩ =>
    show win0_2.index t 0 * 1 + 1 * (y 0).val = (k 0).val
    have hy : (y 0).val < 1 := (y 0).isLt
    have hk : (k 0).val < 1 := (k 0).isLt
    rw [(index2 t).1]; omega
  | ⟨1, _⟩ => show win0_2.index t 1 * 512 + 1 * (y 1).val = (k 1).val; rw [h1, (index2 t).2]; omega

end Cert.KernelIdeal.Blocks

end
-- ==== Proof.KernelPayloads.lean ====
/-
  What the kernel body writes, entry by entry, on the extended reals.

  The body has three stores into the resident [512, 512] output tile:
    * the clearing store writes 0 everywhere;
    * the accumulating store writes, at entry (p, q), the tile's previous entry plus the product
      sum ∑ₖ x(p, k) · w(q, k) over the 6400 columns of the two input blocks (both operands are
      contracted over their second axis);
    * the closing store writes the tile's entry plus the bias row's entry in the same column.
  Changes of float format and shape casts to the same shape are the identity.
-/
import proofs.«153619_j89610197664089_2_alg».proof.Proof.Gen.KernelIdeal.Skeleton
import proofs.«153619_j89610197664089_2_alg».proof.Proof.LibMatmulFin
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-- Contraction position k of output entry y reads the left block at (y₀, k) … -/
abbrev lhsAt (y : S512x512.Idx) (k : Fin 6400) : S512x6400.Idx := fun a => match a with
  | ⟨0, _⟩ => ⟨(y 0).val, (y 0).isLt⟩
  | ⟨1, _⟩ => ⟨k.val, k.isLt⟩

/-- … and the right block at (y₁, k). -/
abbrev rhsAt (y : S512x512.Idx) (k : Fin 6400) : S512x6400.Idx := fun a => match a with
  | ⟨0, _⟩ => ⟨(y 1).val, (y 1).isLt⟩
  | ⟨1, _⟩ => ⟨k.val, k.isLt⟩

theorem lhs_0 (y : S512x512.Idx) (q : dot_S512x6400_S512x6400_S512x512_1_1_0_0_n_n.contr.Idx) : (dot_S512x6400_S512x6400_S512x512_1_1_0_0_n_n.lhsIdx y q 0).val = (y 0).val := by
  unfold DotDims.lhsIdx
  rw [dif_neg (show ¬(0 : Fin S512x6400.rank) ∈ dot_S512x6400_S512x6400_S512x512_1_1_0_0_n_n.lhsBatch by decide),
    dif_pos (show (0 : Fin S512x6400.rank) ∈ dot_S512x6400_S512x6400_S512x512_1_1_0_0_n_n.lhsNonContracting by decide)]
  rfl

theorem lhs_1 (y : S512x512.Idx) (q : dot_S512x6400_S512x6400_S512x512_1_1_0_0_n_n.contr.Idx) : (dot_S512x6400_S512x6400_S512x512_1_1_0_0_n_n.lhsIdx y q 1).val = (q ⟨0, by decide⟩).val :=
  dot_S512x6400_S512x6400_S512x512_1_1_0_0_n_n.lhsIdx_val_of_single rfl y q

theorem rhs_0 (y : S512x512.Idx) (q : dot_S512x6400_S512x6400_S512x512_1_1_0_0_n_n.contr.Idx) : (dot_S512x6400_S512x6400_S512x512_1_1_0_0_n_n.rhsIdx y q 0).val = (y 1).val := by
  unfold DotDims.rhsIdx
  rw [dif_neg (show ¬(0 : Fin S512x6400.rank) ∈ dot_S512x6400_S512x6400_S512x512_1_1_0_0_n_n.rhsBatch by decide),
    dif_pos (show (0 : Fin S512x6400.rank) ∈ dot_S512x6400_S512x6400_S512x512_1_1_0_0_n_n.rhsNonContracting by decide)]
  rfl

theorem rhs_1 (y : S512x512.Idx) (q : dot_S512x6400_S512x6400_S512x512_1_1_0_0_n_n.contr.Idx) : (dot_S512x6400_S512x6400_S512x512_1_1_0_0_n_n.rhsIdx y q 1).val = (q ⟨0, by decide⟩).val :=
  dot_S512x6400_S512x6400_S512x512_1_1_0_0_n_n.rhsIdx_val_of_single rfl y q

/-- The clearing store writes zero. -/
theorem pay1_apply (y : S512x512.Idx) : k0_pay1 (F := Ideal) y = 0 := by
  show Ideal.ofBits .f32 0x00000000#32 = 0
  exact Ideal.ofBits_zero_f32

/-- The accumulating store: the previous entry plus the product sum over the blocks' 6400 columns. -/
theorem pay2_apply (x0 x1 : Vec Ideal S512x6400 .bf16) (acc : Vec Ideal S512x512 .f32) (y : S512x512.Idx) :
    k0_pay2 (F := Ideal) x0 x1 acc y = acc y + ∑ k : Fin 6400, x0 (lhsAt y k) * x1 (rhsAt y k) := by
  unfold k0_pay2
  simp only [shapeCast_self]
  rw [addf_apply]
  congr 1
  exact Cert.LibMatmulFin.matmul_zero_apply_fin dot_S512x6400_S512x6400_S512x512_1_1_0_0_n_n 6400 rfl rfl none x0 x1 y (lhsAt y) (rhsAt y)
    (fun k => funext fun a => Fin.ext (by
      match a with
      | ⟨0, _⟩ => exact lhs_0 _ _
      | ⟨1, _⟩ => exact (lhs_1 _ _).trans (contrEquiv1_symm_val dot_S512x6400_S512x6400_S512x512_1_1_0_0_n_n 6400 rfl rfl k)))
    (fun k => funext fun a => Fin.ext (by
      match a with
      | ⟨0, _⟩ => exact rhs_0 _ _
      | ⟨1, _⟩ => exact (rhs_1 _ _).trans (contrEquiv1_symm_val dot_S512x6400_S512x6400_S512x512_1_1_0_0_n_n 6400 rfl rfl k)))

/-- The closing store: the entry plus the bias row's entry in the same column. -/
theorem pay3_apply (acc : Vec Ideal S512x512 .f32) (x2 : Vec Ideal S1x512 .f32) (y : S512x512.Idx) (k : S1x512.Idx)
    (hk : (k 1).val = (y 1).val) : k0_pay3 (F := Ideal) acc x2 y = acc y + x2 k := by
  unfold k0_pay3
  simp only [shapeCast_self]
  rw [addf_apply]
  congr 1
  exact broadcastTo_apply x2 broadcasts_S1x512_S512x512 y k (fun a => by
    match a with
    | ⟨0, _⟩ =>
      show (k 0).val = if (1 : Nat) = 1 then 0 else _
      have hk0 : (k 0).val < 1 := (k 0).isLt
      rw [if_pos rfl]; omega
    | ⟨1, _⟩ =>
      show (k 1).val = if (512 : Nat) = 1 then 0 else (y 1).val
      rw [if_neg (by decide)]; exact hk)

end Cert.KernelIdeal.Payloads

end
-- ==== Proof.SumBlocks.lean ====
/-
  Sums over consecutive numbers, cut into blocks.

  A sum over the numbers below J·K is the sum, block by block, of J inner sums of K terms each;
  a sum whose last p terms vanish is the sum of the terms before them; and a sum over `Fin K`
  of a function of the position's number is the sum over the numbers below K.  Only
  commutativity and associativity of addition are used, so all of it holds in any commutative
  additive monoid — in particular on the extended reals, where no finiteness is needed.
-/
import Mathlib.Algebra.BigOperators.Fin
import Mathlib.Data.Fintype.BigOperators

namespace Cert.SumBlocks

open Finset

variable {β : Type*} [AddCommMonoid β]

/-- J blocks of K consecutive terms make up the first J·K terms. -/
theorem sum_range_blocks (g : ℕ → β) (K : ℕ) :
    ∀ J : ℕ, ∑ s ∈ range J, ∑ k ∈ range K, g (K * s + k) = ∑ v ∈ range (J * K), g v
  | 0 => by simp
  | J + 1 => by
    rw [sum_range_succ, sum_range_blocks g K J, Nat.add_mul, Nat.one_mul, sum_range_add, Nat.mul_comm K J]

/-- Terms that vanish from position n on do not count. -/
theorem sum_range_tail_zero (g : ℕ → β) (n p : ℕ) (h : ∀ x, x < p → g (n + x) = 0) :
    ∑ v ∈ range (n + p), g v = ∑ v ∈ range n, g v := by
  rw [sum_range_add, sum_eq_zero (fun x hx => h x (mem_range.1 hx)), add_zero]

/-- Two sums over the numbers below n agree when their terms do there. -/
theorem sum_range_congr (f g : ℕ → β) (n : ℕ) (h : ∀ v, v < n → f v = g v) :
    ∑ v ∈ range n, f v = ∑ v ∈ range n, g v :=
  sum_congr rfl fun v hv => h v (mem_range.1 hv)

/-- A sum over the K positions of a function that only looks at the position's number. -/
theorem sum_fin_eq_range (g : ℕ → β) (K : ℕ) : ∑ k : Fin K, g k.val = ∑ k ∈ range K, g k :=
  Fin.sum_univ_eq_sum_range g K

/-- A running total that starts at zero, takes seven addends and then an eighth is the sum of all eight. -/
theorem eight_addends (M : ℕ → β) (b : ℕ) :
    ((0 + ∑ s ∈ range 7, M (b + s)) + M (b + 7)) = ∑ s ∈ range 8, M (b + s) := by
  rw [zero_add, ← sum_range_succ]

end Cert.SumBlocks
-- ==== Proof.KernelFold.lean ====
/-
  The kernel's output array as one sum per entry.

  Output entry (r, l) lives in batch tile q = r / 512, at place (r % 512, l) of the resident tile.
  Over the eight grid points 8q, 8q + 1, …, 8q + 7 of that tile the body clears the tile, adds the
  eight product sums of the eight vocabulary tiles, and finally adds the bias entry of column l.
  Addition on the extended reals is associative and commutative, so the running total is the sum
  of the eight tile sums, and these, laid end to end, are the one sum over all 51200 columns:

      out(r, l) = ∑_{v < 51200} table(r, v) · weights(l, v)  +  bias(0, l).
-/
import proofs.«153619_j89610197664089_2_alg».proof.Proof.KernelBlocks
import proofs.«153619_j89610197664089_2_alg».proof.Proof.KernelPayloads
import proofs.«153619_j89610197664089_2_alg».proof.Proof.SumBlocks

noncomputable section

namespace Cert.KernelIdeal.Fold

open Cert.KernelIdeal Cert.KernelIdeal.Gen Idealize.ShloMosaic Idealize.ShloMosaic.TcCoe Idealize.SL.Sem
open Idealize.ShloMosaic.ValueIdx Cert.KernelIdeal.Blocks Cert.KernelIdeal.Payloads Finset

variable (m : (ℓ : Loc nD τ sig) → Buf (Elt Ideal) ℓ) (c : Dev nD)

/-- Row (i 0), column v of the table. -/
abbrev tIdx (i : S1024x512.Idx) (v : Fin 51200) : S1024x51200.Idx := fun a => match a with
  | ⟨0, _⟩ => ⟨(i 0).val, (i 0).isLt⟩
  | ⟨1, _⟩ => v

/-- Row (i 1), column v of the padded weights. -/
abbrev wIdx (i : S1024x512.Idx) (v : Fin 51200) : S512x51200.Idx := fun a => match a with
  | ⟨0, _⟩ => ⟨(i 1).val, (i 1).isLt⟩
  | ⟨1, _⟩ => v

/-- The three arrays the region reads, as tables of extended reals: the bag-of-words table, the padded weights, the bias row. -/
abbrev tab : S1024x51200.Idx → EReal := V m c main_v22
abbrev wts : S512x51200.Idx → EReal := V m c main_v24
abbrev bia : S1x512.Idx → EReal := V m c main_v25

/-- The table's and the weights' blocks at grid point n. -/
abbrev blkT (n : ℕ) (h : n < cfg0.N) : S512x6400.Idx → EReal := iblk m c 0 ⟨n, h⟩
abbrev blkW (n : ℕ) (h : n < cfg0.N) : S512x6400.Idx → EReal := iblk m c 1 ⟨n, h⟩

/-- Column v's contribution to output entry i: table(i₀, v) · weights(i₁, v); nothing from column 51200 on. -/
def term (i : S1024x512.Idx) (v : ℕ) : EReal :=
  if h : v < 51200 then tab m c (tIdx i ⟨v, h⟩) * wts m c (wIdx i ⟨v, h⟩) else 0

/-- What grid point n adds at place y of the resident tile: the product sum of its two blocks. -/
def addend (n : ℕ) (y : S512x512.Idx) : EReal :=
  if h : n < cfg0.N then ∑ k : Fin 6400, blkT m c n h (lhsAt y k) * blkW m c n h (rhsAt y k) else 0

/-- The first point of a tile's run leaves 0 plus its product sum. -/
theorem reset_apply (n : ℕ) (h : n < cfg0.N) (y : S512x512.Idx) :
    Value.reset3 m c n h y = 0 + addend m c n y := by
  unfold Value.reset3 addend
  rw [pay2_apply, pay1_apply, dif_pos h]

/-- A middle point of the run adds its product sum to what it found. -/
theorem step_mid (n : ℕ) (h : n < cfg0.N) (acc : Vec Ideal S512x512 .f32) (y : S512x512.Idx)
    (h0 : ¬n % 8 = 0) (h7 : ¬n % 8 = 7) : Value.step3 m c n h acc y = acc y + addend m c n y := by
  unfold Value.step3 addend
  rw [if_pos ⟨h0, h7⟩, pay2_apply, dif_pos h]

/-- The last point of the run adds its product sum and then the bias entry of the column. -/
theorem step_last (n : ℕ) (h : n < cfg0.N) (acc : Vec Ideal S512x512 .f32) (y : S512x512.Idx) (kb : S1x512.Idx)
    (hkb : (kb 1).val = (y 1).val) (h7 : n % 8 = 7) :
    Value.step3 m c n h acc y = (acc y + addend m c n y) + bia m c kb := by
  unfold Value.step3 addend
  rw [if_neg (fun hh => hh.2 h7), if_pos ⟨by omega, h7⟩, pay3_apply _ _ y kb hkb, pay2_apply, dif_pos h,
    iblk2_apply m c ⟨n, h⟩ kb kb rfl]

/-- The whole run of tile q at place y: the eight product sums, then the bias. -/
theorem run_apply (q : ℕ) (h : 8 * q + 7 < cfg0.N) (y : S512x512.Idx) (kb : S1x512.Idx) (hkb : (kb 1).val = (y 1).val) :
    Pipeline.accAt (Value.reset3 m c) (Value.step3 m c) (8 * q) 7 h y
      = (∑ s ∈ range 8, addend m c (8 * q + s) y) + bia m c kb := by
  rw [Pipeline.accAt_succ, step_last m c _ h _ y kb hkb (by omega)]
  rw [Pipeline.accAt_add_apply (ι := S512x512.Idx) (β := EReal) (Value.reset3 m c) (Value.step3 m c) (fun _ => 0)
    (addend m c) (8 * q) 6 (fun hb y => reset_apply m c _ hb y)
    (fun n hn acc y hlo hhi => step_mid m c n hn acc y (by omega) (by omega)) 6 le_rfl _ y]
  exact congrArg (· + bia m c kb) (Cert.SumBlocks.eight_addends (fun n => addend m c n y) (8 * q))

/-- The product sum of point 8q + s, at place y of tile q, is the stretch 6400·s … 6400·s + 6399 of entry i's terms. -/
theorem addend_eq (i : S1024x512.Idx) (q s : ℕ) (hs : s < 8) (hq : 8 * q + s < cfg0.N) (y : S512x512.Idx)
    (h0 : (i 0).val = 512 * q + (y 0).val) (h1 : (i 1).val = (y 1).val) :
    addend m c (8 * q + s) y = ∑ k ∈ range 6400, term m c i (6400 * s + k) := by
  unfold addend
  rw [dif_pos hq, ← Cert.SumBlocks.sum_fin_eq_range (fun k => term m c i (6400 * s + k)) 6400]
  refine Finset.sum_congr rfl fun k _ => ?_
  have hk : k.val < 6400 := k.isLt
  have hv : 6400 * s + k.val < 51200 := by omega
  unfold term
  rw [dif_pos hv]
  exact congrArg₂ (· * ·)
    (iblk0_apply m c ⟨8 * q + s, hq⟩ (lhsAt y k) (tIdx i ⟨6400 * s + k.val, hv⟩)
      (by show (i 0).val = 512 * ((8 * q + s) / 8) + (y 0).val; omega)
      (by show 6400 * s + k.val = 6400 * ((8 * q + s) % 8) + k.val; omega))
    (iblk1_apply m c ⟨8 * q + s, hq⟩ (rhsAt y k) (wIdx i ⟨6400 * s + k.val, hv⟩)
      (by show (i 1).val = (y 1).val; exact h1)
      (by show 6400 * s + k.val = 6400 * ((8 * q + s) % 8) + k.val; omega))

/-- THE KERNEL'S ARRAY, entry by entry: the sum over all 51200 columns of table · weights, plus the bias. -/
theorem G3_apply (i : S1024x512.Idx) (kb : S1x512.Idx) (hkb : (kb 1).val = (i 1).val) :
    Value.G3 (F := Ideal) m c i = (∑ v ∈ range 51200, term m c i v) + bia m c kb := by
  have hi0 : (i 0).val < 1024 := (i 0).isLt
  have hi1 : (i 1).val < 512 := (i 1).isLt
  have hN : cfg0.N = 16 := N_0
  have hrun : Value.run3Of i = (i 0).val / 512 := by
    show 1 * ((i 0).val / 512 - 0) + 1 * ((i 1).val / 512 - 0) = (i 0).val / 512
    omega
  have hy0 : (Value.loc3Of i 0).val = (i 0).val % 512 := rfl
  have hy1 : (Value.loc3Of i 1).val = (i 1).val % 512 := rfl
  -- the run of tile q = r / 512, whatever spelling its first point has
  have key : ∀ (b : ℕ) (hb : b = 8 * ((i 0).val / 512)) (h : b + 7 < cfg0.N),
      Pipeline.accAt (Value.reset3 m c) (Value.step3 m c) b 7 h (Value.loc3Of i)
        = (∑ v ∈ range 51200, term m c i v) + bia m c kb := by
    intro b hb
    subst hb
    intro h
    rw [run_apply m c _ h (Value.loc3Of i) kb (by rw [hkb, hy1]; omega)]
    refine congrArg (· + bia m c kb) ?_
    refine Eq.trans ?_ (Cert.SumBlocks.sum_range_blocks (term m c i) 6400 8)
    refine Finset.sum_congr rfl fun s hs => ?_
    have hs8 : s < 8 := Finset.mem_range.1 hs
    exact addend_eq m c i _ s hs8 (by omega) (Value.loc3Of i) (by rw [hy0]; omega) (by rw [hy1]; omega)
  unfold Value.G3
  rw [dif_pos (by rw [hrun]; omega)]
  exact key _ (by rw [hrun]) _

end Cert.KernelIdeal.Fold

end
-- ==== Proof.KernelTerms.lean ====
/-
  The arrays the kernel region is handed, as functions of the three arguments.

  Before the region runs, the program builds a multi-hot bag-of-words table by one scatter, pads
  the weight matrix with zero columns, and recasts the bias vector as a row:

  * `bow text` : [1024, 51200].  Start from zeros; for every (b, t), in row-major order of (b, t),
    write `vals (b, t)` at row `rowIx (b, t)`, column `colIx text (b, t)`, dropping a write whose
    position lies outside the table.  Here `tok (b, t) = text[t, b]`, `vals (b, t)` is 0 when the
    token is 1 and 1 otherwise, the row is `b` itself, and the column is the token, a negative
    token moved up by the table's width 51200.
  * `wPad W` : [512, 51200].  `W` in columns 0 … 49999, zero in columns 50000 … 51199.
  * `bRow b` : [1, 512].  The bias vector as a one-row matrix.

  Changes of float format are written as the program writes them; on the extended reals they are
  the identity.
-/
import proofs.«153619_j89610197664089_2_alg».proof.Proof.Gen.KernelIdeal

noncomputable section

namespace Cert.KernelIdeal.HostSide

open Cert.KernelIdeal Cert.KernelIdeal.Gen Idealize.ShloMosaic

variable {F : FTy → Type} [FloatOps F]

/-- The token table transposed: entry (b, t) is `text[t, b]`. -/
def tok (x0 : IVec S200x1024 32) : IVec S1024x200 32 :=
  transpose S1024x200 [1, 0] x0 transposes_S200x1024_S1024x200_1_0

/-- The constant `n` at every (b, t). -/
def splat (n : BitVec 32) : IVec S1024x200 32 :=
  broadcastInDim S1024x200 ![] bcast_S_S1024x200 (constantI S_ 32 n)

/-- The row number `b` at every (b, t). -/
def rowOf : IVec S1024x200 32 :=
  broadcastInDim S1024x200 ![0, 1] bcast_S1024x1_S1024x200_0_1
    (broadcastInDim S1024x1 ![0] bcast_S1024_S1024x1_0 (iotaInDim S1024 32 0))

/-- The row a write goes to: `b`, a negative one moved up by the row count (never taken: `b ≥ 0`). -/
def rowIx : IVec S1024x200 32 :=
  select (cmpi .slt rowOf (splat 0#32)) (addi rowOf (splat 1024#32)) rowOf

/-- The column a write goes to: the token, a negative one moved up by the table's width 51200. -/
def colIx (x0 : IVec S200x1024 32) : IVec S1024x200 32 :=
  select (cmpi .slt (tok x0) (splat 0#32)) (addi (tok x0) (splat 51200#32)) (tok x0)

/-- The scatter's index table [1024, 200, 2]: (row, column) of the write for (b, t). -/
def scatIdx (x0 : IVec S200x1024 32) : IVec S1024x200x2 32 :=
  concatenate S1024x200x2 2
    [⟨S1024x200x1, broadcastInDim S1024x200x1 ![0, 1] bcast_S1024x200_S1024x200x1_0_1 rowIx⟩,
     ⟨S1024x200x1, broadcastInDim S1024x200x1 ![0, 1] bcast_S1024x200_S1024x200x1_0_1 (colIx x0)⟩]
    concatenates_S1024x200x1_S1024x200x1_S1024x200x2_d2

/-- The value written for (b, t): 0 when the token is the padding token 1, else 1. -/
def vals (x0 : IVec S200x1024 32) : FVec F S1024x200 .bf16 :=
  truncf .bf16
    (select (cmpi .eq (tok x0) (splat 1#32))
      (broadcastInDim S1024x200 ![] bcast_S_S1024x200 (constant S_ .f32 0x00000000#32))
      (broadcastInDim S1024x200 ![] bcast_S_S1024x200 (constant S_ .f32 0x3F800000#32)))
    bitsLt_bf16_f32

/-- The bag-of-words table the region reads. -/
def bow (x0 : IVec S200x1024 32) : FVec F S1024x51200 .bf16 :=
  Host.scatter scatter_S1024x51200_S1024x200x2_S1024x200_n_01_01_2 (fun _ b => b)
    (broadcastInDim S1024x51200 ![] bcast_S_S1024x51200 (constant S_ .bf16 0x0000#16)) (scatIdx x0) (vals (F := F) x0)

/-- The weight matrix with 1200 zero columns appended. -/
def wPad (x1 : FVec F S512x50000 .f32) : FVec F S512x51200 .bf16 :=
  truncf .bf16
    (pad S512x51200 ![0, 0] ![0, 1200] ![0, 0] x1 (sitofp .f32 (constantI S_ 32 0#32))
      pads_S512x50000_S512x51200_000_012000 h_S_)
    bitsLt_bf16_f32

/-- The bias vector as a one-row matrix. -/
def bRow (x2 : FVec F S512 .f32) : FVec F S1x512 .f32 :=
  shapeCast S1x512 x2 shapeCasts_S512_S1x512

end Cert.KernelIdeal.HostSide

end
-- ==== Proof.KernelHost.lean ====
/-
  What the kernel region is handed.

  Before the region runs, the program computes three arrays from its arguments by a straight line
  of host operations: the bag-of-words table, the padded weight matrix and the bias as a row.  The
  first part of this file reads the three buffers after that line and finds them to be the terms
  `bow`, `wPad`, `bRow` of the launch contents of the three arguments.  The second part reads the
  two simple ones at an entry: a padded weight is the weight itself inside the original 50000
  columns and zero in the 1200 appended ones, and the bias row at (0, j) is the bias at j.
-/
import proofs.«153619_j89610197664089_2_alg».proof.Proof.KernelTerms
import proofs.«153619_j89610197664089_2_alg».proof.Proof.Gen.KernelIdeal.Frame
import Idealize.ShloMosaic.Lib.StableHlo.Run
import Idealize.ShloMosaic.PureOps.Ideal
import Idealize.ShloMosaic.Lib.Pipeline.Value
import Idealize.ShloMosaic.Lib.KernelVsHost

noncomputable section

namespace Cert.KernelIdeal.HostSide

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (c : Dev nD)

/-! ## The three arrays the region finds

Each buffer below is written once by the line of host operations that precedes the region, from
buffers that are themselves written once from the arguments; reading the line back operation by
operation gives the composed term, which is the corresponding definition of `KernelTerms` unfolded. -/

set_option maxHeartbeats 4000000 in
/-- The region's first operand is the bag-of-words table of the token argument. -/
theorem V_bow : (V m c main_v22 : S1024x51200.Idx → EReal) = bow (F := Ideal) (m ((c : Thread nD τ).loc main_arg0)) := by
  simp only [Gen.V, Gen.hostOps0, Gen.hostOps0_1, Gen.hostOps0_2, Gen.hostOps0_3, Gen.hostOps0_4, List.flatten_cons,
    List.flatten_nil, List.append_nil, List.cons_append, List.nil_append]
  after_results
  rfl

set_option maxHeartbeats 2000000 in
/-- The region's second operand is the weight argument with its 1200 zero columns appended. -/
theorem V_wPad : (V m c main_v24 : S512x51200.Idx → EReal) = wPad (F := Ideal) (m ((c : Thread nD τ).loc main_arg1)) := by
  simp only [Gen.V, Gen.hostOps0, Gen.hostOps0_1, Gen.hostOps0_2, Gen.hostOps0_3, Gen.hostOps0_4, List.flatten_cons,
    List.flatten_nil, List.append_nil, List.cons_append, List.nil_append]
  after_results
  rfl

set_option maxHeartbeats 2000000 in
/-- The region's third operand is the bias argument as a one-row matrix. -/
theorem V_bRow : (V m c main_v25 : S1x512.Idx → EReal) = bRow (F := Ideal) (m ((c : Thread nD τ).loc main_arg2)) := by
  simp only [Gen.V, Gen.hostOps0, Gen.hostOps0_1, Gen.hostOps0_2, Gen.hostOps0_3, Gen.hostOps0_4, List.flatten_cons,
    List.flatten_nil, List.append_nil, List.cons_append, List.nil_append]
  after_results
  rfl

/-! ## The padded weights at an entry -/

/-- The integer 0 converted to a float is the real number 0. -/
theorem sitofp_zero (i : S_.Idx) : (sitofp (F := Ideal) .f32 (constantI S_ 32 0#32)) i = (0 : EReal) := by
  show (((0#32 : BitVec 32).toInt : ℝ) : EReal) = 0
  simp

/-- Inside the original 50000 columns a padded weight is the weight itself. -/
theorem wPad_apply_in (k : S512x51200.Idx) (k' : S512x50000.Idx) (x1 : FVec Ideal S512x50000 .f32)
    (h0 : (k 0).val = (k' 0).val) (h1 : (k 1).val = (k' 1).val) : wPad (F := Ideal) x1 k = x1 k' := by
  unfold wPad
  show pad S512x51200 ![0, 0] ![0, 1200] ![0, 0] x1 (sitofp .f32 (constantI S_ 32 0#32))
      pads_S512x50000_S512x51200_000_012000 h_S_ k = x1 k'
  refine pad_apply_of_inside _ _ _ x1 _ _ _ k k' (fun a => ?_)
  match a with
  | ⟨0, _⟩ => show (k 0).val = 0 + (k' 0).val * (0 + 1); omega
  | ⟨1, _⟩ => show (k 1).val = 0 + (k' 1).val * (0 + 1); omega

/-- In the 1200 appended columns a padded weight is zero. -/
theorem wPad_apply_out (k : S512x51200.Idx) (x1 : FVec Ideal S512x50000 .f32) (h : 50000 ≤ (k 1).val) :
    wPad (F := Ideal) x1 k = 0 := by
  unfold wPad
  show pad S512x51200 ![0, 0] ![0, 1200] ![0, 0] x1 (sitofp .f32 (constantI S_ 32 0#32))
      pads_S512x50000_S512x51200_000_012000 h_S_ k = 0
  rw [pad_apply_of_not_inside _ _ _ x1 _ _ _ k (1 : Fin 2) (fun hin => by
    have h3 : ((k 1).val - 0) / (0 + 1) < 50000 := hin.2.2
    omega)]
  exact sitofp_zero _

/-! ## The bias row at an entry -/

/-- The one-row matrix at (0, j) is the bias vector at j. -/
theorem bRow_apply (k : S1x512.Idx) (k' : S512.Idx) (x2 : FVec Ideal S512 .f32) (h : (k 1).val = (k' 0).val) :
    bRow (F := Ideal) x2 k = x2 k' := by
  unfold bRow
  refine shapeCast_apply x2 _ k k' ?_
  rw [Shape.rowMajor_val_one, Shape.rowMajor_val_two]
  have hk0 : (k 0).val < 1 := (k 0).isLt
  show (k' 0).val = (k 0).val * 512 + (k 1).val
  omega

end Cert.KernelIdeal.HostSide

end
-- ==== Proof.LibScatterSet.lean ====
/-
  A scatter whose body returns the update ("set"), read at one index.

  `Host.scatter d f x idx upd` is a left fold over the update positions in row-major order.  Each
  step takes the array built so far and, when the update position lands inside the operand, replaces
  the element at the landing index by `f` of the old element and the update.  When `f` returns the
  update, the element at a fixed index `i` only ever changes by being overwritten: its history is
  a fold over SCALARS, which keeps the last update that landed on `i`.  Two such scatters therefore
  agree at a pair of indices as soon as they start equal there, every update position lands on the
  one index exactly when it lands on the other, and the values written by the positions that land
  agree — whatever the two operand shapes, dimension numbers and index tables are.
-/
import Idealize.ShloMosaic.PureOps.ShapeOps

namespace Cert.LibScatterSet

open Idealize.ShloMosaic

/-- An update position lands on the index `i` exactly when, on every operand axis, its start plus
    its window coordinate is `i`'s coordinate.  The in-range test the scatter makes before writing
    is then automatic, `i` being an index of the operand; conversely a position that fails the
    test lands nowhere. -/
theorem resultIdx?_eq_some_iff {s si u : Shape} {w : Nat} (d : ScatterDims s si u)
    (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hin
      have hv := congrArg Fin.val (congrFun (Option.some.inj h) a)
      simp only at hv
      have := hin a
      omega
    · cases h
  · intro hall
    have hin : ∀ a, 0 ≤ d.start j idx a + d.window j a ∧ d.start j idx a + d.window j a < s.size a := by
      intro a; have := hall a; have := (i a).isLt; omega
    rw [dif_pos hin]
    congr 1; funext a; apply Fin.ext; simp only; have := hall a; omega

/-- One step of a set-scatter, read at the index `i`: the array after the step holds at `i` the
    update's value when the update position `j` lands on `i`, and the old element otherwise
    (the update landed elsewhere, or outside the operand and was dropped). -/
theorem step_apply {α : Type} {s si u : Shape} {w : Nat} (d : ScatterDims s si u)
    (idx : IVec si w) (upd : u.Idx → α) (r : s.Idx → α) (j : u.Idx) (i : s.Idx) :
    (match d.resultIdx? j idx with
      | some k => fun i' => if i' = k then (fun (_ b : α) => b) (r k) (upd j) else r i'
      | none => r) i
      = if d.resultIdx? j idx = some i then upd j else r i := by
  cases hk : d.resultIdx? j idx with
  | none => simp
  | some k =>
    by_cases hik : i = k
    · subst hik; simp
    · have hne : ¬ (some k = some i) := fun h => hik (Option.some.inj h).symm
      simp [hik, hne]

/-- The array fold of a set-scatter over ANY list of flat update positions, read at `i`, is the
    scalar fold over the same list started from the element at `i`: by induction on the list, the
    starting array generalized, each step rewritten by `step_apply`. -/
theorem foldl_set_apply {α : Type} {s si u : Shape} {w : Nat} (d : ScatterDims s si u)
    (idx : IVec si w) (upd : u.Idx → α) (i : s.Idx) (l : List (Fin u.numel)) (x : s.Idx → α) :
    l.foldl (fun r n =>
        match d.resultIdx? (u.rowMajor.symm n) idx with
        | some k => fun i' => if i' = k then (fun (_ b : α) => b) (r k) (upd (u.rowMajor.symm n)) else r i'
        | none => r) x i
      = l.foldl (fun a n =>
          if d.resultIdx? (u.rowMajor.symm n) idx = some i then upd (u.rowMajor.symm n) else a) (x i) := by
  induction l generalizing x with
  | nil => rfl
  | cons n l ih =>
    rw [List.foldl_cons, List.foldl_cons, ih, step_apply]

/-- A set-scatter read at one index `i` is a scalar left fold over the update positions in
    row-major order: start from the operand's element at `i`; an update position that lands on `i`
    overwrites the running value with its update, any other leaves it. -/
theorem scatter_set_apply {α : Type} {s si u : Shape} {w : Nat} (d : ScatterDims s si u)
    (x : s.Idx → α) (idx : IVec si w) (upd : u.Idx → α) (i : s.Idx) :
    Host.scatter d (fun _ b => b) x idx upd i
      = (List.finRange u.numel).foldl (fun a n =>
          if d.resultIdx? (u.rowMajor.symm n) idx = some i then upd (u.rowMajor.symm n) else a) (x i) := by
  unfold Host.scatter
  exact foldl_set_apply d idx upd i _ x

/-- Two scalar "keep the last hit" folds over the same list agree when they start equal, hit at
    the same positions, and write equal values where they hit. -/
theorem foldl_hit_congr {α ι : Type} (l : List ι) (P Q : ι → Prop) [DecidablePred P] [DecidablePred Q]
    (f g : ι → α) (hPQ : ∀ n, P n ↔ Q n) (hfg : ∀ n, P n → f n = g n) (a b : α) (hab : a = b) :
    l.foldl (fun a n => if P n then f n else a) a = l.foldl (fun b n => if Q n then g n else b) b := by
  induction l generalizing a b with
  | nil => exact hab
  | cons n l ih =>
    rw [List.foldl_cons, List.foldl_cons]
    apply ih
    by_cases hp : P n
    · rw [if_pos hp, if_pos ((hPQ n).1 hp)]; exact hfg n hp
    · rw [if_neg hp, if_neg (fun hq => hp ((hPQ n).2 hq))]; exact hab

/-- Two set-scatters with the same update shape — operand shapes, dimension numbers, index tables
    and update tables possibly different — agree at the indices `i` and `i'` when the operands agree
    there, every update position lands on `i` in the first exactly when it lands on `i'` in the
    second, and the updates that land carry equal values. -/
theorem scatter_set_congr {α : Type} {s s' si si' u : Shape} {w w' : Nat}
    (d : ScatterDims s si u) (d' : ScatterDims s' si' u)
    (x : s.Idx → α) (x' : s'.Idx → α) (idx : IVec si w) (idx' : IVec si' w') (upd upd' : u.Idx → α)
    (i : s.Idx) (i' : s'.Idx)
    (h0 : x i = x' i')
    (hhit : ∀ j : u.Idx, d.resultIdx? j idx = some i ↔ d'.resultIdx? j idx' = some i')
    (hupd : ∀ j : u.Idx, d.resultIdx? j idx = some i → upd j = upd' j) :
    Host.scatter d (fun _ b => b) x idx upd i = Host.scatter d' (fun _ b => b) x' idx' upd' i' := by
  rw [scatter_set_apply, scatter_set_apply]
  exact foldl_hit_congr _ _ _ _ _ (fun n => hhit _) (fun n hn => hupd _ hn) _ _ h0

end Cert.LibScatterSet
-- ==== Proof.BowAgree.lean ====
/-
  The two bag-of-words tables agree on the columns the reference has.

  Both programs build a multi-hot table by one scatter that sets: starting from zeros, for every
  position (b, t), in row-major order, write v(b, t) at row b, column c(b, t), a later write
  replacing an earlier one and a write outside the table dropped.  Here tok(b, t) = text[t, b],
  v(b, t) is 0 when the token is 1 and 1 otherwise, and c(b, t) is the token, a NEGATIVE token
  first moved up by the table's width.  The kernel's table is 51200 columns wide, the reference's
  50000, so the two disagree on where a negative token goes; when no token is negative neither
  program moves anything and both write at column tok(b, t) itself.

  Read at one entry (r, c) with c < 50000, a scatter that sets is a fold over the positions that
  keeps the last write landing on (r, c) (LibScatterSet).  Position (b, t) lands on (r, c) in the
  kernel's table exactly when b = r and tok(b, t) = c as integers, and in the reference's table
  under the same two equations: the range test each scatter makes is automatic once the landing
  entry is named, and the widths enter nowhere else.  The starts agree (zero), the positions that
  land agree, the values written agree, hence the entries agree.
-/
import proofs.«153619_j89610197664089_2_alg».proof.Proof.KernelTerms
import proofs.«153619_j89610197664089_2_alg».proof.Proof.Gen.ReferenceIdeal.Read
import proofs.«153619_j89610197664089_2_alg».proof.Proof.LibScatterSet
import Idealize.ShloMosaic.Lib.IdealHost
import Idealize.ShloMosaic.Lib.Pipeline.Value
import Idealize.ShloMosaic.PureOps.Ideal.Laws

noncomputable section

namespace Cert.BowAgree

open Idealize.ShloMosaic Cert.KernelIdeal Cert.KernelIdeal.Gen Cert.KernelIdeal.HostSide
open Cert.ReferenceIdeal.Read Cert.LibScatterSet

variable {F : FTy → Type} [FloatOps F]

/-! ## Three facts about 32-bit words -/

/-- A word that is not negative as a signed integer is not below zero in the signed order. -/
theorem slt_zero_of_nonneg (x : BitVec 32) (h : 0 ≤ x.toInt) : IntOp.cmpi .slt x 0#32 = 0#1 := by
  unfold IntOp.cmpi
  have : x.slt 0#32 = false := by
    unfold BitVec.slt
    simp only [BitVec.toInt_zero, decide_eq_false_iff_not, not_lt]
    exact h
  simp only [this]
  rfl

/-- A select on the false bit takes its second branch. -/
theorem select_zero {α : Type} (a b : α) : Scalar.select 0#1 a b = b := by
  unfold Scalar.select
  rw [if_neg (by decide)]

/-- A natural number below 1024, as a 32-bit word, reads back as itself as a signed integer:
    it is far below 2³¹, so the sign bit is clear. -/
theorem toInt_ofNat_small (b : Nat) (h : b < 1024) : (BitVec.ofNat 32 b).toInt = (b : Int) := by
  have hn : (BitVec.ofNat 32 b).toNat = b := by
    rw [BitVec.toNat_ofNat]; exact Nat.mod_eq_of_lt (by omega)
  rw [BitVec.toInt_eq_toNat_of_lt (by rw [hn]; omega), hn]

/-! ## Indices built from a position (b, t) -/

/-- The entry of the token table position (b, t) reads: (t, b). -/
abbrev tr (j : S1024x200.Idx) : S200x1024.Idx := fun a => match a with
  | ⟨0, _⟩ => ⟨(j 1).val, (j 1).isLt⟩
  | ⟨1, _⟩ => ⟨(j 0).val, (j 0).isLt⟩

/-- (b, t, c): component c of the index vector of position (b, t) in a [1024, 200, 2] index table. -/
abbrev at3 (j : S1024x200.Idx) (c : Fin 2) : S1024x200x2.Idx := fun a => match a with
  | ⟨0, _⟩ => ⟨(j 0).val, (j 0).isLt⟩
  | ⟨1, _⟩ => ⟨(j 1).val, (j 1).isLt⟩
  | ⟨2, _⟩ => ⟨c.val, c.isLt⟩

/-- (b, t, 0): position (b, t) in a [1024, 200, 1] table. -/
abbrev at1 (j : S1024x200.Idx) : S1024x200x1.Idx := fun a => match a with
  | ⟨0, _⟩ => ⟨(j 0).val, (j 0).isLt⟩
  | ⟨1, _⟩ => ⟨(j 1).val, (j 1).isLt⟩
  | ⟨2, _⟩ => ⟨0, Nat.one_pos⟩

/-! ## An index table joined from a row table and a column table

Both programs form the scatter's [1024, 200, 2] index table the same way: a [1024, 200] table of rows
and one of columns are each given a trailing axis of size one and the two are joined along it. -/

/-- A [1024, 200] table given a trailing unit axis, read at (b, t, 0), is the table at (b, t). -/
theorem unit_axis_apply {α : Type} (y : S1024x200.Idx → α)
    (h : S1024x200.BroadcastsInDim S1024x200x1 (![0, 1] : Fin 2 → Fin S1024x200x1.rank)) (j : S1024x200.Idx) :
    broadcastInDim S1024x200x1 ![0, 1] h y (at1 j) = y j :=
  broadcastInDim_apply _ h y (at1 j) j (fun a => match a with
    | ⟨0, _⟩ => by show (j 0).val = if (1024 : Nat) = 1 then 0 else (j 0).val; rw [if_neg (by decide)]
    | ⟨1, _⟩ => by show (j 1).val = if (200 : Nat) = 1 then 0 else (j 1).val; rw [if_neg (by decide)])

/-- Component 0 of the joined table at (b, t) is the row table at (b, t). -/
theorem pair_row {α : Type} (r c : S1024x200.Idx → α)
    (h₁ h₂ : S1024x200.BroadcastsInDim S1024x200x1 (![0, 1] : Fin 2 → Fin S1024x200x1.rank))
    (hc : Shape.Concatenates [S1024x200x1, S1024x200x1] S1024x200x2 2) (j : S1024x200.Idx) :
    concatenate S1024x200x2 2
        [⟨S1024x200x1, broadcastInDim S1024x200x1 ![0, 1] h₁ r⟩, ⟨S1024x200x1, broadcastInDim S1024x200x1 ![0, 1] h₂ c⟩] hc
        (at3 j 0) = r j := by
  rw [concatenate_pair_apply_left 2 _ _ hc (at3 j 0) rfl (at1 j) (fun b => match b with
    | ⟨0, _⟩ => rfl
    | ⟨1, _⟩ => rfl
    | ⟨2, _⟩ => rfl)]
  exact unit_axis_apply r h₁ j

/-- Component 1 of the joined table at (b, t) is the column table at (b, t). -/
theorem pair_col {α : Type} (r c : S1024x200.Idx → α)
    (h₁ h₂ : S1024x200.BroadcastsInDim S1024x200x1 (![0, 1] : Fin 2 → Fin S1024x200x1.rank))
    (hc : Shape.Concatenates [S1024x200x1, S1024x200x1] S1024x200x2 2) (j : S1024x200.Idx) :
    concatenate S1024x200x2 2
        [⟨S1024x200x1, broadcastInDim S1024x200x1 ![0, 1] h₁ r⟩, ⟨S1024x200x1, broadcastInDim S1024x200x1 ![0, 1] h₂ c⟩] hc
        (at3 j 1) = c j := by
  rw [concatenate_pair_apply_right 2 _ _ hc (at3 j 1) rfl rfl (at1 j) (fun b => match b with
    | ⟨0, _⟩ => fun _ => rfl
    | ⟨1, _⟩ => fun _ => rfl
    | ⟨2, _⟩ => fun hne => absurd rfl hne) rfl]
  exact unit_axis_apply c h₂ j

/-! ## The kernel's row and column at (b, t) -/

/-- The transposed token table at (b, t) is `text[t, b]`. -/
theorem tok_apply (x0 : IVec S200x1024 32) (j : S1024x200.Idx) : tok x0 j = x0 (tr j) := by
  unfold tok
  exact transpose_apply [1, 0] x0 transposes_S200x1024_S1024x200_1_0 j (tr j) (fun b => match b with
    | ⟨0, _⟩ => rfl
    | ⟨1, _⟩ => rfl)

/-- The constant table reads its constant. -/
theorem splat_apply (n : BitVec 32) (j : S1024x200.Idx) : splat n j = n := by
  unfold splat
  rw [ValueIdx.broadcastInDim_scalar_apply]
  rfl

/-- The row-number table at (b, t) is the word `b`. -/
theorem rowOf_apply (j : S1024x200.Idx) : rowOf j = BitVec.ofNat 32 (j 0).val := by
  unfold rowOf
  rw [broadcastInDim_apply _ bcast_S1024x1_S1024x200_0_1 _ j
      (fun a => match a with
        | ⟨0, _⟩ => ⟨(j 0).val, (j 0).isLt⟩
        | ⟨1, _⟩ => ⟨0, Nat.one_pos⟩)
      (fun a => match a with
        | ⟨0, _⟩ => by show (j 0).val = if (1024 : Nat) = 1 then 0 else (j 0).val; rw [if_neg (by decide)]
        | ⟨1, _⟩ => by show 0 = if (1 : Nat) = 1 then 0 else (j 1).val; rw [if_pos rfl])]
  rw [broadcastInDim_apply _ bcast_S1024_S1024x1_0 _ _
      (fun a => match a with
        | ⟨0, _⟩ => ⟨(j 0).val, (j 0).isLt⟩)
      (fun a => match a with
        | ⟨0, _⟩ => by show (j 0).val = if (1024 : Nat) = 1 then 0 else (j 0).val; rw [if_neg (by decide)])]
  rfl

/-- The kernel writes position (b, t) at row `b`: the row number is never negative, so the branch
    that would move it up by 1024 is not taken, and `b < 1024` reads back as itself. -/
theorem rowIx_toInt (j : S1024x200.Idx) : (rowIx j).toInt = ((j 0).val : Int) := by
  have hb : (j 0).val < 1024 := (j 0).isLt
  show (Scalar.select (IntOp.cmpi .slt (rowOf j) (splat 0#32 j)) (IntOp.addi (rowOf j) (splat 1024#32 j)) (rowOf j)).toInt = _
  rw [splat_apply, rowOf_apply, slt_zero_of_nonneg _ (by rw [toInt_ofNat_small _ hb]; omega), select_zero,
    toInt_ofNat_small _ hb]

/-- When no token is negative the kernel writes position (b, t) at column `text[t, b]`: the branch
    that would move the token up by 51200 is not taken. -/
theorem colIx_eq (x0 : IVec S200x1024 32) (hx : ∀ p, 0 ≤ (x0 p).toInt) (j : S1024x200.Idx) :
    colIx x0 j = x0 (tr j) := by
  show Scalar.select (IntOp.cmpi .slt (tok x0 j) (splat 0#32 j)) (IntOp.addi (tok x0 j) (splat 51200#32 j)) (tok x0 j) = _
  rw [splat_apply, tok_apply, slt_zero_of_nonneg _ (hx _), select_zero]

/-- Component 0 of the kernel's index vector for (b, t) is its row. -/
theorem scatIdx_row (x0 : IVec S200x1024 32) (j : S1024x200.Idx) : scatIdx x0 (at3 j 0) = rowIx j := by
  unfold scatIdx
  exact pair_row rowIx (colIx x0) _ _ _ j

/-- Component 1 of the kernel's index vector for (b, t) is its column. -/
theorem scatIdx_col (x0 : IVec S200x1024 32) (j : S1024x200.Idx) : scatIdx x0 (at3 j 1) = colIx x0 j := by
  unfold scatIdx
  exact pair_col rowIx (colIx x0) _ _ _ j

/-! ## The reference's row and column at (b, t) -/

/-- The reference writes position (b, t) at row `b`, for the same reason as the kernel. -/
theorem refRow_toInt (j : S1024x200.Idx) : (val_main_v13 (F := F) j).toInt = ((j 0).val : Int) := by
  have hb : (j 0).val < 1024 := (j 0).isLt
  rw [val_main_v13_apply, val_main_v10_apply, val_main_v9_apply, val_main_c_2_apply, val_main_v7_apply,
    val_main_v6_apply, val_main_v5_apply]
  show (Scalar.select (IntOp.cmpi .slt (BitVec.ofNat 32 (j 0).val) 0#32) _ (BitVec.ofNat 32 (j 0).val)).toInt = _
  rw [slt_zero_of_nonneg _ (by rw [toInt_ofNat_small _ hb]; omega), select_zero, toInt_ofNat_small _ hb]

/-- When no token is negative the reference writes position (b, t) at column `text[t, b]`: the
    branch that would move the token up by 50000 is not taken. -/
theorem refCol_eq (x0 : IVec S200x1024 32) (hx : ∀ p, 0 ≤ (x0 p).toInt) (j : S1024x200.Idx) :
    val_main_v18 (F := F) x0 j = x0 (tr j) := by
  rw [val_main_v18_apply, val_main_v15_apply, val_main_v14_apply, val_main_c_4_apply, val_main_v0_apply]
  show Scalar.select (IntOp.cmpi .slt (x0 (tr j)) 0#32) _ (x0 (tr j)) = _
  rw [slt_zero_of_nonneg _ (hx _), select_zero]

/-- Component 0 of the reference's index vector for (b, t) is its row. -/
theorem refIdx_row (x0 : IVec S200x1024 32) (j : S1024x200.Idx) :
    val_main_v21 (F := F) x0 (at3 j 0) = val_main_v13 (F := F) j := by
  unfold val_main_v21 val_main_v19 val_main_v20
  exact pair_row (val_main_v13 (F := F)) (val_main_v18 (F := F) x0) _ _ _ j

/-- Component 1 of the reference's index vector for (b, t) is its column. -/
theorem refIdx_col (x0 : IVec S200x1024 32) (j : S1024x200.Idx) :
    val_main_v21 (F := F) x0 (at3 j 1) = val_main_v18 (F := F) x0 j := by
  unfold val_main_v21 val_main_v19 val_main_v20
  exact pair_col (val_main_v13 (F := F)) (val_main_v18 (F := F) x0) _ _ _ j

/-! ## Where a position lands, for each program's dimension numbers

Both scatters have no window axes, both operand axes inserted, index-vector component `a` going to
operand axis `a`, and the index vector on the last axis of the index table.  So the window
coordinate is 0 on both axes and the start on axis `a` is component `a` of the index vector of
(b, t), read as a signed integer. -/

/-- The kernel's scatter, into the [1024, 51200] table. -/
abbrev dK : ScatterDims S1024x51200 S1024x200x2 S1024x200 :=
  Cert.KernelIdeal.scatter_S1024x51200_S1024x200x2_S1024x200_n_01_01_2

/-- The reference's scatter, into the [1024, 50000] table. -/
abbrev dR : ScatterDims Cert.ReferenceIdeal.S1024x50000 S1024x200x2 S1024x200 :=
  Cert.ReferenceIdeal.scatter_S1024x50000_S1024x200x2_S1024x200_n_01_01_2

/-- Both axes of the kernel's table are inserted: none is a window axis. -/
theorem sKept_K : dK.sKept = [] := by decide

/-- The kernel's window coordinate is 0 on both axes. -/
theorem window_K (j : S1024x200.Idx) (a : Fin S1024x51200.rank) : dK.window j a = 0 := by
  unfold ScatterDims.window
  rw [dif_neg (by rw [sKept_K]; exact List.not_mem_nil)]

/-- The kernel's start on the row axis is component 0 of the index vector of (b, t). -/
theorem start_K_row {w : Nat} (j : S1024x200.Idx) (idx : IVec S1024x200x2 w) :
    dK.start j idx 0 = (idx (at3 j 0)).toInt := by
  unfold ScatterDims.start
  rw [dif_pos (show (0 : Fin S1024x51200.rank) ∈ dK.scatterDimsToOperandDims by decide)]
  refine congrArg (fun k => (idx k).toInt) (funext fun c => Fin.ext ?_)
  match c with
  | ⟨0, _⟩ => rfl
  | ⟨1, _⟩ => rfl
  | ⟨2, _⟩ => rfl

/-- The kernel's start on the column axis is component 1 of the index vector of (b, t). -/
theorem start_K_col {w : Nat} (j : S1024x200.Idx) (idx : IVec S1024x200x2 w) :
    dK.start j idx 1 = (idx (at3 j 1)).toInt := by
  unfold ScatterDims.start
  rw [dif_pos (show (1 : Fin S1024x51200.rank) ∈ dK.scatterDimsToOperandDims by decide)]
  refine congrArg (fun k => (idx k).toInt) (funext fun c => Fin.ext ?_)
  match c with
  | ⟨0, _⟩ => rfl
  | ⟨1, _⟩ => rfl
  | ⟨2, _⟩ => rfl

/-- In the kernel's scatter, position (b, t) lands on the entry `i` exactly when the two components
    of its index vector are `i`'s row and column. -/
theorem hit_K {w : Nat} (j : S1024x200.Idx) (idx : IVec S1024x200x2 w) (i : S1024x51200.Idx) :
    dK.resultIdx? j idx = some i
      ↔ (idx (at3 j 0)).toInt = ((i 0).val : Int) ∧ (idx (at3 j 1)).toInt = ((i 1).val : Int) := by
  rw [resultIdx?_eq_some_iff]
  constructor
  · intro h
    have r := h 0
    have c := h 1
    rw [window_K, start_K_row] at r
    rw [window_K, start_K_col] at c
    exact ⟨by simpa using r, by simpa using c⟩
  · intro h a
    rw [window_K]
    match a with
    | ⟨0, _⟩ => rw [show (⟨0, by decide⟩ : Fin S1024x51200.rank) = 0 from rfl, start_K_row]; simpa using h.1
    | ⟨1, _⟩ => rw [show (⟨1, by decide⟩ : Fin S1024x51200.rank) = 1 from rfl, start_K_col]; simpa using h.2

/-- Both axes of the reference's table are inserted: none is a window axis. -/
theorem sKept_R : dR.sKept = [] := by decide

/-- The reference's window coordinate is 0 on both axes. -/
theorem window_R (j : S1024x200.Idx) (a : Fin Cert.ReferenceIdeal.S1024x50000.rank) : dR.window j a = 0 := by
  unfold ScatterDims.window
  rw [dif_neg (by rw [sKept_R]; exact List.not_mem_nil)]

/-- The reference's start on the row axis is component 0 of the index vector of (b, t). -/
theorem start_R_row {w : Nat} (j : S1024x200.Idx) (idx : IVec S1024x200x2 w) :
    dR.start j idx 0 = (idx (at3 j 0)).toInt := by
  unfold ScatterDims.start
  rw [dif_pos (show (0 : Fin Cert.ReferenceIdeal.S1024x50000.rank) ∈ dR.scatterDimsToOperandDims by decide)]
  refine congrArg (fun k => (idx k).toInt) (funext fun c => Fin.ext ?_)
  match c with
  | ⟨0, _⟩ => rfl
  | ⟨1, _⟩ => rfl
  | ⟨2, _⟩ => rfl

/-- The reference's start on the column axis is component 1 of the index vector of (b, t). -/
theorem start_R_col {w : Nat} (j : S1024x200.Idx) (idx : IVec S1024x200x2 w) :
    dR.start j idx 1 = (idx (at3 j 1)).toInt := by
  unfold ScatterDims.start
  rw [dif_pos (show (1 : Fin Cert.ReferenceIdeal.S1024x50000.rank) ∈ dR.scatterDimsToOperandDims by decide)]
  refine congrArg (fun k => (idx k).toInt) (funext fun c => Fin.ext ?_)
  match c with
  | ⟨0, _⟩ => rfl
  | ⟨1, _⟩ => rfl
  | ⟨2, _⟩ => rfl

/-- In the reference's scatter, position (b, t) lands on the entry `i'` exactly when the two
    components of its index vector are `i'`'s row and column. -/
theorem hit_R {w : Nat} (j : S1024x200.Idx) (idx : IVec S1024x200x2 w) (i' : Cert.ReferenceIdeal.S1024x50000.Idx) :
    dR.resultIdx? j idx = some i'
      ↔ (idx (at3 j 0)).toInt = ((i' 0).val : Int) ∧ (idx (at3 j 1)).toInt = ((i' 1).val : Int) := by
  rw [resultIdx?_eq_some_iff]
  constructor
  · intro h
    have r := h 0
    have c := h 1
    rw [window_R, start_R_row] at r
    rw [window_R, start_R_col] at c
    exact ⟨by simpa using r, by simpa using c⟩
  · intro h a
    rw [window_R]
    match a with
    | ⟨0, _⟩ =>
      rw [show (⟨0, by decide⟩ : Fin Cert.ReferenceIdeal.S1024x50000.rank) = 0 from rfl, start_R_row]; simpa using h.1
    | ⟨1, _⟩ =>
      rw [show (⟨1, by decide⟩ : Fin Cert.ReferenceIdeal.S1024x50000.rank) = 1 from rfl, start_R_col]; simpa using h.2

/-! ## The starts and the written values, on the extended reals -/

/-- The kernel's table starts at zero: the bf16 zero pattern is the extended real 0. -/
theorem zero_K (i : S1024x51200.Idx) :
    broadcastInDim S1024x51200 ![] bcast_S_S1024x51200 (constant (F := Ideal) S_ .bf16 0x0000#16) i = 0 := by
  rw [ValueIdx.broadcastInDim_scalar_apply]
  exact Ideal.ofBits_zero_bf16

/-- The reference's table starts at zero: the f32 zero pattern is the extended real 0. -/
theorem zero_R (i' : Cert.ReferenceIdeal.S1024x50000.Idx) : val_main_v8 (F := Ideal) i' = 0 := by
  rw [val_main_v8_apply, val_main_cst_1_apply]
  exact Ideal.ofBits_zero_f32

/-- Both programs write the same value for (b, t): the f32 patterns of 0 and 1 selected by
    `text[t, b] = 1`; the kernel then narrows to bf16, which on the extended reals changes nothing. -/
theorem vals_agree (x0 : IVec S200x1024 32) (j : S1024x200.Idx) :
    vals (F := Ideal) x0 j = val_main_v4 (F := Ideal) x0 j := by
  rw [val_main_v4_apply, val_main_v3_apply, val_main_v2_apply, val_main_v0_apply, val_main_v1_apply,
    val_main_c_apply, val_main_call0_v0_apply, val_main_cst_apply, val_main_call0_v1_apply, val_main_cst_0_apply]
  show FloatOps.truncf (F := Ideal) .bf16 bitsLt_bf16_f32
      (Scalar.select (IntOp.cmpi .eq (tok x0 j) (splat 1#32 j))
        (broadcastInDim S1024x200 ![] bcast_S_S1024x200 (constant (F := Ideal) S_ .f32 0x00000000#32) j)
        (broadcastInDim S1024x200 ![] bcast_S_S1024x200 (constant (F := Ideal) S_ .f32 0x3F800000#32) j)) = _
  rw [Ideal.truncf_def, tok_apply, splat_apply, ValueIdx.broadcastInDim_scalar_apply,
    ValueIdx.broadcastInDim_scalar_apply]
  rfl

/-! ## The tables agree -/

/-- When no token is negative, the kernel's [1024, 51200] table and the reference's [1024, 50000]
    table hold the same extended real at the same row and column. -/
theorem bow_agree (x0 : IVec S200x1024 32) (hx : ∀ p, 0 ≤ (x0 p).toInt)
    (i : S1024x51200.Idx) (i' : Cert.ReferenceIdeal.S1024x50000.Idx)
    (h0 : (i 0).val = (i' 0).val) (h1 : (i 1).val = (i' 1).val) :
    bow (F := Ideal) x0 i = val_main_v22 (F := Ideal) x0 i' := by
  unfold bow val_main_v22
  refine scatter_set_congr dK dR _ _ _ _ _ _ i i' ?_ ?_ ?_
  · rw [zero_K, zero_R]
  · intro j
    rw [hit_K, hit_R, scatIdx_row, scatIdx_col, refIdx_row, refIdx_col, rowIx_toInt, refRow_toInt,
      colIx_eq x0 hx, refCol_eq x0 hx, h0, h1]
  · intro j _
    exact vals_agree x0 j

end Cert.BowAgree

end
-- ==== Proof.RefScore.lean ====
/-
  The reference's result, entry by entry.

  The reference builds its bag-of-words table [1024, 50000] by the same scatter, contracts it with
  the weights over the 50000 columns, and adds the bias vector along the rows:

      ref(r, l) = ∑_{v < 50000} table(r, v) · W(l, v)  +  b(l).
-/
import proofs.«153619_j89610197664089_2_alg».proof.Proof.Gen.ReferenceIdeal.Read
import proofs.«153619_j89610197664089_2_alg».proof.Proof.SumBlocks

noncomputable section

namespace Cert.ReferenceIdeal.Score

open Cert.ReferenceIdeal Cert.ReferenceIdeal.Gen Cert.ReferenceIdeal.Read Idealize.ShloMosaic Finset

/-- Column v's contribution to entry i of the reference: table(i₀, v) · W(i₁, v); nothing from column 50000 on. -/
def term (x0 : IVec S200x1024 32) (x1 : FVec Ideal S512x50000 .f32) (i : S1024x512.Idx) (v : ℕ) : EReal :=
  if h : v < 50000 then val_main_v22 (F := Ideal) x0 (lidx_main_v23 i ⟨v, h⟩) * x1 (ridx_main_v23 i ⟨v, h⟩) else 0

/-- THE REFERENCE'S ARRAY, entry by entry: the sum over the 50000 columns of table · W, plus the bias entry. -/
theorem val_apply (x0 : IVec S200x1024 32) (x1 : FVec Ideal S512x50000 .f32) (x2 : FVec Ideal S512 .f32)
    (i : S1024x512.Idx) (kb : S512.Idx) (hkb : (kb 0).val = (i 1).val) :
    val_main_v26 (F := Ideal) x0 x1 x2 i = (∑ v ∈ range 50000, term x0 x1 i v) + x2 kb := by
  refine (val_main_v26_apply (F := Ideal) x0 x1 x2 i).trans ?_
  show val_main_v23 (F := Ideal) x0 x1 i + val_main_v25 (F := Ideal) x2 i = _
  refine congrArg₂ (· + ·) ?_ ?_
  · refine (val_main_v23_apply x0 x1 i).trans ?_
    rw [← Cert.SumBlocks.sum_fin_eq_range (term x0 x1 i) 50000]
    refine Finset.sum_congr rfl fun k _ => ?_
    unfold term
    rw [dif_pos k.isLt]
  · refine (val_main_v25_apply (F := Ideal) x2 i).trans ((val_main_v24_apply (F := Ideal) x2 (idx_main_v25 i)).trans ?_)
    congr 1
    funext a
    apply Fin.ext
    match a with
    | ⟨0, _⟩ => show (i 1).val = (kb 0).val; exact hkb.symm

end Cert.ReferenceIdeal.Score

end
-- ==== Proof.Score.lean ====
/-
  The two programs compute the same score.

  Kernel:     out(r, l) = ∑_{v < 51200} tableK(r, v) · weightsPadded(l, v) + biasRow(0, l)
  Reference:  ref(r, l) = ∑_{v < 50000} tableR(r, v) · W(l, v)             + b(l)

  The padded weights are W in the first 50000 columns and zero in the last 1200, so the kernel's
  last 1200 terms vanish (x · 0 = 0 for every extended real x, the infinities included); in the
  first 50000 columns the two bag-of-words tables agree when no token is negative; and the bias
  row is the bias vector.  No finiteness of W or b is needed.
-/
import proofs.«153619_j89610197664089_2_alg».proof.Proof.KernelFold
import proofs.«153619_j89610197664089_2_alg».proof.Proof.KernelHost
import proofs.«153619_j89610197664089_2_alg».proof.Proof.BowAgree
import proofs.«153619_j89610197664089_2_alg».proof.Proof.RefScore

noncomputable section

namespace Cert.Score

open Cert.KernelIdeal Cert.KernelIdeal.Gen Idealize.ShloMosaic Idealize.ShloMosaic.TcCoe Idealize.SL.Sem
open Cert.KernelIdeal.HostSide

variable (m : (ℓ : Loc nD τ sig) → Buf (Elt Ideal) ℓ) (c : Dev nD)

/-- The bias row's entry in output column (i 1) … -/
abbrev rowAt (i : S1024x512.Idx) : S1x512.Idx := fun a => match a with
  | ⟨0, _⟩ => ⟨0, Nat.one_pos⟩
  | ⟨1, _⟩ => ⟨(i 1).val, (i 1).isLt⟩

/-- … and the bias vector's. -/
abbrev vecAt (i : S1024x512.Idx) : S512.Idx := fun a => match a with
  | ⟨0, _⟩ => ⟨(i 1).val, (i 1).isLt⟩

/-- From column 50000 on the kernel's terms vanish: the padded weight there is zero. -/
theorem term_tail (i : S1024x512.Idx) (x : ℕ) (hx : x < 1200) : Fold.term m c i (50000 + x) = 0 := by
  have hv : 50000 + x < 51200 := by omega
  unfold Fold.term
  rw [dif_pos hv]
  have hw : Fold.wts m c (Fold.wIdx i ⟨50000 + x, hv⟩) = 0 := by
    show (V m c main_v24 : S512x51200.Idx → EReal) (Fold.wIdx i ⟨50000 + x, hv⟩) = (0 : EReal)
    rw [V_wPad m c]
    exact wPad_apply_out _ _ (by show 50000 ≤ 50000 + x; omega)
  rw [hw, mul_zero]

/-- Below column 50000 the kernel's term is the reference's, when no token is negative. -/
theorem term_agree (hx : ∀ p : S200x1024.Idx, 0 ≤ (m ((c : Thread nD τ).loc main_arg0) p).toInt)
    (i : S1024x512.Idx) (v : ℕ) (hv : v < 50000) :
    Fold.term m c i v
      = Cert.ReferenceIdeal.Score.term (m ((c : Thread nD τ).loc main_arg0)) (m ((c : Thread nD τ).loc main_arg1)) i v := by
  have hv' : v < 51200 := by omega
  unfold Fold.term Cert.ReferenceIdeal.Score.term
  rw [dif_pos hv', dif_pos hv]
  refine congrArg₂ (· * ·) ?_ ?_
  · show (V m c main_v22 : S1024x51200.Idx → EReal) (Fold.tIdx i ⟨v, hv'⟩) = _
    rw [V_bow m c]
    exact Cert.BowAgree.bow_agree _ hx _ _ rfl rfl
  · show (V m c main_v24 : S512x51200.Idx → EReal) (Fold.wIdx i ⟨v, hv'⟩) = _
    rw [V_wPad m c]
    exact wPad_apply_in _ _ _ rfl rfl

/-- THE SCORES AGREE: entry by entry the kernel's array is the reference's, when no token is negative. -/
theorem score_eq (hx : ∀ p : S200x1024.Idx, 0 ≤ (m ((c : Thread nD τ).loc main_arg0) p).toInt) (i : S1024x512.Idx) :
    Cert.KernelIdeal.Value.G3 (F := Ideal) m c i
      = Cert.ReferenceIdeal.Read.val_main_v26 (F := Ideal) (m ((c : Thread nD τ).loc main_arg0))
          (m ((c : Thread nD τ).loc main_arg1)) (m ((c : Thread nD τ).loc main_arg2)) i := by
  rw [Fold.G3_apply m c i (rowAt i) rfl, Cert.ReferenceIdeal.Score.val_apply _ _ _ i (vecAt i) rfl]
  refine congrArg₂ (· + ·) ?_ ?_
  · exact (Cert.SumBlocks.sum_range_tail_zero (Fold.term m c i) 50000 1200 (term_tail m c i)).trans
      (Cert.SumBlocks.sum_range_congr _ _ 50000 (term_agree m c hx i))
  · show (V m c main_v25 : S1x512.Idx → EReal) (rowAt i) = _
    rw [V_bRow m c]
    exact bRow_apply _ _ _ rfl

end Cert.Score

end
-- ==== Proof.PreText.lean ====
/-
  The precondition, decoded for the token table.

  The certificate's precondition is the conjunction of three tests, each a `jnp.all`: every weight
  finite, every bias finite, and every token nonnegative.  Only the last matters for the index
  arithmetic of the scatter, so only it is read back here: the conjunction being 1 makes its last
  conjunct 1; an `and`-reduction over both axes that is 1 met a 1 at every entry; and the entry
  is the signed comparison `text[t, b] ≥ 0`.
-/
import proofs.«153619_j89610197664089_2_alg».proof.Defs
import proofs.«153619_j89610197664089_2_alg».proof.Proof.Gen.Pre_finite_inputs
import Idealize.ShloMosaic.Lib.ReduceAll
import Idealize.ShloMosaic.Lib.Affine

noncomputable section

namespace Cert.PreText

open Idealize.ShloMosaic Idealize.ShloMosaic.TcCoe Idealize.SL.Sem

/-- The rank-0 shape has exactly one index. -/
instance : Subsingleton Cert.Pre_finite_inputs.S_.Idx := ⟨fun _ _ => funext fun d => d.elim0⟩

/-- Under the precondition every token is nonnegative, read as a signed 32-bit integer. -/
theorem text_nonneg (m : (ℓ : Loc Cert.KernelIdeal.nD Cert.KernelIdeal.τ Cert.KernelIdeal.sig) → Buf (Elt Ideal) ℓ)
    (h : Cert.Pre_KernelIdeal m) (c : Dev Cert.KernelIdeal.nD) :
    ∀ p : Cert.KernelIdeal.S200x1024.Idx,
      0 ≤ (m ((c.tc : Thread Cert.KernelIdeal.nD Cert.KernelIdeal.τ).loc Cert.KernelIdeal.main_arg0) p).toInt := by
  intro p
  -- the precondition at the one index of its rank-0 result
  have e := congrFun (h c) (fun d => d.elim0)
  unfold Cert.Pre_finite_inputs.fn at e
  dsimp only [andi] at e
  -- the outer conjunction: keep its last conjunct, the test on the tokens
  have e3 := (IntOp.andi_eq_one.1 e).2
  -- an and-reduction over both axes that is 1 met a 1 at every entry
  have e4 := Host.reduce_andi_all _ _ _ _ _ e3 p
  -- the entry is the signed comparison of the token with 0
  dsimp only [cmpi, broadcastInDim, constantI] at e4
  have e5 := IntOp.cmpi_sge.1 e4
  simpa using e5

end Cert.PreText

end
-- ==== Proof.lean ====
/-
  A bag-of-words scorer: the Pallas kernel equals its jnp reference on the extended reals.

  text : int32[200, 1024] holds token ids, W : f32[512, 50000] a weight matrix, b : f32[512] a bias.
  Both programs first build a multi-hot table: one scatter writes, for every (b, t), the value
  [text[t, b] ≠ 1] at row b, column text[t, b], later writes winning and out-of-range writes dropped.
  The reference's table is [1024, 50000] and its result is  table · Wᵀ + b.  The kernel builds the
  table at the padded width 51200, pads W with 1200 zero columns, and runs a 2 × 8 grid: for each
  of two batch tiles it clears a resident [512, 512] output tile, accumulates the eight products
  of [512, 6400] blocks, and finally adds the bias row.

  The two results are equal entry by entry:
    * the eight block products, added in order from zero, are the one sum over all 51200 columns
      (associativity and commutativity of + on the extended reals; no finiteness is needed);
    * the last 1200 columns contribute nothing, since the padded weights are zero there;
    * on the first 50000 columns the two tables agree — PROVIDED no token is negative.  A negative
      column index is first moved up by the table's width, 51200 in the kernel and 50000 in the
      reference, so a negative token lands in different columns in the two programs.  The
      precondition therefore asks, besides finite float inputs, that every token be ≥ 0; tokens at
      or above 50000 need no assumption (the reference drops them, the kernel writes them into
      columns that meet zero weights).
  The frames of the two kernel programs are the generated ones; the reference's frame is its run
  with the result forgotten; the idealization rewrote nothing, so `preserves` is `True`.
-/
import proofs.«153619_j89610197664089_2_alg».proof.Defs
import proofs.«153619_j89610197664089_2_alg».proof.Proof.Gen.Kernel.Frame
import proofs.«153619_j89610197664089_2_alg».proof.Proof.Gen.KernelIdeal.Value
import proofs.«153619_j89610197664089_2_alg».proof.Proof.Gen.Pre_finite_inputs
import proofs.«153619_j89610197664089_2_alg».proof.Proof.Gen.ReferenceIdeal.Run
import proofs.«153619_j89610197664089_2_alg».proof.Proof.Gen.ReferenceIdeal.Read
import proofs.«153619_j89610197664089_2_alg».proof.Proof.Score
import proofs.«153619_j89610197664089_2_alg».proof.Proof.PreText
import Idealize.ShloMosaic.Adequacy
import Idealize.ShloMosaic.Init

noncomputable section

namespace Cert.Proof

open Idealize.ShloMosaic Idealize.SL.Sem

/-- The idealized kernel runs and leaves its arguments alone: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments alone: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the three arguments, with no negative token, both programs end with the
    same [1024, 512] array: the kernel's fold of block products and the reference's one contraction are
    the same sum, entry by entry. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v26_eq (F := Ideal) _ _ _).trans ?_
  funext i
  exact (Cert.Score.score_eq m c (Cert.PreText.text_nonneg m hpre c) i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
